-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "neg_scale_over_temperature" .f32 0xBE624630#32 ((-11863283 / 53687092 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x512 : Shape := ⟨2, ![1024, 512]⟩
abbrev S65536x512 : Shape := ⟨2, ![65536, 512]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel
  bcast_S_S65536x512 : S_.BroadcastsInDim S65536x512 (![] : Fin 0 → Fin S65536x512.rank)
  reducesTo_S65536x512_S_d0_1 : S65536x512.ReducesTo [0, 1] S_

variable [Facts]

def fn {F : FTy → Type} [FloatOps F] (main_arg0 : FVec F S1024x512 .f32) (main_arg1 : FVec F S65536x512 .f32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  let main_v4 : FVec F S65536x512 .f32 := Host.absf main_arg1
  let main_cst_0 : FVec F S_ .f32 := constant S_ .f32 0x7F800000#32
  let main_v5 : FVec F S65536x512 .f32 := broadcastInDim S65536x512 ![] bcast_S_S65536x512 main_cst_0
  let main_v6 : IVec S65536x512 1 := cmpf .olt main_v4 main_v5
  let main_c_1 : IVec S_ 1 := constantI S_ 1 1#1
  let main_v7 : IVec S_ 1 := (fun x v => Host.reduce IntOp.andi x v reducesTo_S65536x512_S_d0_1 h_S_) main_v6 main_c_1
  let main_v8 : IVec S_ 1 := andi main_v3 main_v7
  main_v8
-- ==== Kernel.lean ====
abbrev S1024x512 : Shape := ⟨2, ![1024, 512]⟩
abbrev S65536x512 : Shape := ⟨2, ![65536, 512]⟩
abbrev S1024x65536 : Shape := ⟨2, ![1024, 65536]⟩
abbrev S4096x512 : Shape := ⟨2, ![4096, 512]⟩
abbrev S1024x4096 : Shape := ⟨2, ![1024, 4096]⟩

abbrev nBuf : Space → Nat
  | .hbm => 3
  | .vmem => 5
  | .smem => 0
  | _ => 0

abbrev bufTy : (tb : Table) → Fin (tcTables nBuf tb) → BufTy
  | .hbm, ⟨0, _⟩ => ⟨S1024x512, .f32⟩
  | .hbm, ⟨1, _⟩ => ⟨S65536x512, .f32⟩
  | .hbm, ⟨2, _⟩ => ⟨S1024x65536, .f32⟩
  | .local _ .vmem, ⟨0, _⟩ => ⟨S1024x512, .f32⟩
  | .local _ .vmem, ⟨1, _⟩ => ⟨S4096x512, .f32⟩
  | .local _ .vmem, ⟨2, _⟩ => ⟨S4096x512, .f32⟩
  | .local _ .vmem, ⟨3, _⟩ => ⟨S1024x4096, .f32⟩
  | .local _ .vmem, ⟨4, _⟩ => ⟨S1024x4096, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  inb_S4096x512_S4096x512_0_0 : ∀ a, (![0, 0] : Fin 2 → Nat) a + S4096x512.size a ≤ S4096x512.size a
  h_S4096x512 : 0 < S4096x512.numel
  inb_S1024x4096_S1024x4096_0_0 : ∀ a, (![0, 0] : Fin 2 → Nat) a + S1024x4096.size a ≤ S1024x4096.size a
  h_S1024x4096 : 0 < S1024x4096.numel
  dot_S1024x512_S4096x512_S1024x4096_1_1_0_0_n_n_wf : DotDims.WF S1024x512 S4096x512 S1024x4096 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S1024x512.size a
  hwx0_0 : ∀ i : grid0.Coords, EltTy.bits .f32 = 32 ∨ (Rect.block (s := S1024x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x512.size a ≤ S65536x512.size a
  hwx0_1 : ∀ i : grid0.Coords, EltTy.bits .f32 = 32 ∨ (Rect.block (s := S65536x512) S4096x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x4096.size a ≤ S1024x65536.size a
  hwx0_2 : ∀ i : grid0.Coords, EltTy.bits .f32 = 32 ∨ (Rect.block (s := S1024x65536) S1024x4096.size (cc0_transform_2 i) (hinb0_2 i)).WholeWords (EltTy.packing .f32)

variable [Facts₀]

def dot_S1024x512_S4096x512_S1024x4096_1_1_0_0_n_n : DotDims S1024x512 S4096x512 S1024x4096 where
  lhsContracting := [1]
  rhsContracting := [1]
  lhsNonContracting := [0]
  rhsNonContracting := [0]
  lhsBatch := []
  rhsBatch := []
  wf := dot_S1024x512_S4096x512_S1024x4096_1_1_0_0_n_n_wf

abbrev win0_0 : Pipeline.Window sig grid0 :=
  Pipeline.Window.ofSpec (Memref.whole main_arg0) S1024x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1024x512 : Shape := ⟨2, ![1024, 512]⟩
abbrev S65536x512 : Shape := ⟨2, ![65536, 512]⟩
abbrev S512x65536 : Shape := ⟨2, ![512, 65536]⟩
abbrev S1024x65536 : Shape := ⟨2, ![1024, 65536]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S65536x512, .f32⟩
  | .hbm, ⟨2, _⟩ => ⟨S512x65536, .f32⟩
  | .hbm, ⟨3, _⟩ => ⟨S1024x65536, .f32⟩
  | .hbm, ⟨4, _⟩ => ⟨S_, .f32⟩
  | .hbm, ⟨5, _⟩ => ⟨S1024x65536, .f32⟩
  | .hbm, ⟨6, _⟩ => ⟨S1024x65536, .f32⟩
  | .hbm, ⟨7, _⟩ => ⟨S1024x65536, .f32⟩
  | .hbm, ⟨8, _⟩ => ⟨S_, .f32⟩
  | .hbm, ⟨9, _⟩ => ⟨S1024x65536, .f32⟩
  | .hbm, ⟨10, _⟩ => ⟨S1024x65536, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]

class Facts₀ : Prop where
  transposes_S65536x512_S512x65536_1_0 : S65536x512.Transposes [1, 0] S512x65536
  bcast_S_S1024x65536 : S_.BroadcastsInDim S1024x65536 (![] : Fin 0 → Fin S1024x65536.rank)
  dot_S1024x512_S512x65536_S1024x65536_1_0_0_1_n_n_wf : DotDims.WF S1024x512 S512x65536 S1024x65536 [1] [0] [0] [1] [] []

variable [Facts₀]

def dot_S1024x512_S512x65536_S1024x65536_1_0_0_1_n_n : DotDims S1024x512 S512x65536 S1024x65536 where
  lhsContracting := [1]
  rhsContracting := [0]
  lhsNonContracting := [0]
  rhsNonContracting := [1]
  lhsBatch := []
  rhsBatch := []
  wf := dot_S1024x512_S512x65536_S1024x65536_1_0_0_1_n_n_wf

class Facts : Prop extends Facts₀ where

variable [Facts]
-- ==== Proof.Consts.lean ====
/-
  The two float words the reference spells, as the extended reals they denote: the scale 1/sqrt(512) rounded to
  single precision is 11863283 / 2^28, and the temperature 0.2 rounded to single precision is 13421773 / 2^26. Their
  quotient, negated, is the rational -11863283 / 53687092.
-/
import Idealize.ShloMosaic.PureOps.Ideal

noncomputable section

namespace Cert.Consts

open Idealize.ShloMosaic

/-- The scale's word: exponent field 122, significand 2^23 + 3474675 = 11863283, so 11863283 · 2^(-28). -/
theorem ofBits_scale : Ideal.ofBits .f32 0x3D3504F3#32 = ((11863283 / 268435456 : ℝ) : EReal) := by
  simp [Ideal.ofBits, Ideal.ieee, -EReal.coe_mul]; norm_num

/-- The temperature's word: exponent field 124, significand 2^23 + 5033165 = 13421773, so 13421773 · 2^(-26). -/
theorem ofBits_temperature : Ideal.ofBits .f32 0x3E4CCCCD#32 = ((13421773 / 67108864 : ℝ) : EReal) := by
  simp [Ideal.ofBits, Ideal.ieee, -EReal.coe_mul]; norm_num

/-- The temperature is not zero. -/
theorem temperature_ne_zero : (13421773 / 67108864 : ℝ) ≠ 0 := by norm_num

/-- Minus the scale over the temperature, in lowest terms. -/
theorem neg_scale_div_temperature :
    (-((11863283 / 268435456 : ℝ) / (13421773 / 67108864)) : ℝ) = -11863283 / 53687092 := by norm_num

end Cert.Consts

end
-- ==== Proof.LibDense.lean ====
/-
  Dense layers on the extended reals, entry by entry.

  A matrix product is read at an entry as the sum over the contracted axis of the products of the
  operands' entries; an affine layer adds a bias row to every row of a product; the rectifier takes
  the maximum with zero. The vector unit's matrix product into a zero accumulator and the host's
  general dot product with one contracted axis are both this sum at every entry, so a layer computed
  block of rows by block of rows and a layer computed on the whole array are one function.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Dense

open Idealize.ShloMosaic Idealize.ShloMosaic.ValueIdx

variable {M K N : ℕ}

/-- A matrix of extended reals with `a` rows and `b` columns. -/
abbrev Mat (a b : ℕ) : Type := (⟨2, ![a, b]⟩ : Shape).Idx → EReal
/-- A row of `a` extended reals. -/
abbrev Row (a : ℕ) : Type := (⟨1, ![a]⟩ : Shape).Idx → EReal

/-- The matrix product: entry (r, c) is the sum over k of A(r, k) · W(k, c). -/
def mm (A : Mat M K) (W : Mat K N) : Mat M N := fun i => ∑ k : Fin K, A (ix2 (i 0) k) * W (ix2 k (i 1))

/-- An affine layer: the product plus the bias of the entry's column. -/
def affine (A : Mat M K) (W : Mat K N) (b : Row N) : Mat M N := fun i => mm A W i + b (ix1 (i 1))

/-- The rectifier: the maximum with zero, entry by entry. -/
def relu (X : Mat M N) : Mat M N := fun i => max (X i) 0

/-- The sum over the one contracted axis of a plain M×K by K×N product is the sum over `Fin K`. -/
theorem plain_sum (a : Mat M K) (b : Mat K N) (j : (⟨2, ![M, N]⟩ : Shape).Idx) :
    ∑ k : (DotDims.plain M K N).contr.Idx, a ((DotDims.plain M K N).lhsIdx j k) * b ((DotDims.plain M K N).rhsIdx j k)
      = mm a b j := by
  unfold mm
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => rfl
      | ⟨1, _⟩ => exact hk)
  have er : (DotDims.plain M K N).rhsIdx j ((contrEquiv1 (DotDims.plain M K N) K rfl rfl).symm k) = ix2 k (j 1) :=
    funext fun a => Fin.ext (by
      match a with
      | ⟨0, _⟩ => exact hk
      | ⟨1, _⟩ => rfl)
  exact congr (congrArg _ (congrArg a el)) (congrArg b er)

/-- The vector unit's plain matrix product into a zero accumulator is the product, entry by entry. -/
theorem matmul_plain_zero {φ₁ φ₂ : FTy} (prec : Option ContractPrecision) (a : FVec Ideal ⟨2, ![M, K]⟩ φ₁) (b : FVec Ideal ⟨2, ![K, N]⟩ φ₂) :
    matmul (DotDims.plain M K N) prec a b (constant (F := Ideal) ⟨2, ![M, N]⟩ .f32 0x00000000#32) = mm a b := by
  funext j
  simp only [matmul]
  rw [Ideal.matmul_constant_zero_apply]
  exact plain_sum a b j

/-- The host's plain general dot product is the product, entry by entry. -/
theorem dotGeneral_plain {φ₁ φ₂ : FTy} (a : FVec Ideal ⟨2, ![M, K]⟩ φ₁) (b : FVec Ideal ⟨2, ![K, N]⟩ φ₂) :
    Host.dotGeneral (F := Ideal) (DotDims.plain M K N) none a b = mm a b := by
  funext j
  simp only [Host.dotGeneral]
  rw [Ideal.dotGeneral_apply]
  exact plain_sum a b j

/-- A change of float format is the identity on the extended reals. -/
theorem truncf_id {s : Shape} {φ ψ : FTy} (a : FVec Ideal s φ) (h : ψ.bits < φ.bits) : (truncf ψ a h : FVec Ideal s ψ) = a := rfl

/-! ## A layer as the vector unit computes it on a block of rows -/

/-- An affine layer whose bias is stored as a one-row matrix. -/
def affine2 (A : Mat M K) (W : Mat K N) (b : Mat 1 N) : Mat M N := fun i => mm A W i + b (ix2 (0 : Fin 1) (i 1))

/-- The product into a zero accumulator plus the bias row broadcast over the rows. -/
theorem addf_matmul_broadcastTo {φ₁ φ₂ : FTy} (prec : Option ContractPrecision) (a : FVec Ideal ⟨2, ![M, K]⟩ φ₁)
    (w : FVec Ideal ⟨2, ![K, N]⟩ φ₂) (b : FVec Ideal ⟨2, ![1, N]⟩ .f32) (h : (⟨2, ![1, N]⟩ : Shape).Broadcasts ⟨2, ![M, N]⟩) :
    addf (matmul (DotDims.plain M K N) prec a w (constant (F := Ideal) ⟨2, ![M, N]⟩ .f32 0x00000000#32)) (broadcastTo ⟨2, ![M, N]⟩ b h)
      = affine2 a w b := by
  rw [matmul_plain_zero]
  funext i
  obtain ⟨p, q, rfl⟩ : ∃ (p : Fin M) (q : Fin N), i = ix2 p q := ⟨i 0, i 1, eq_ix2 i⟩
  show mm a w (ix2 p q) + broadcastTo ⟨2, ![M, N]⟩ b h (ix2 p q) = _
  rw [broadcastTo_1b_ab_apply]
  rfl

/-- The maximum with a splat of the zero word is the rectifier. -/
theorem maximumf_splat_zero (X : FVec Ideal ⟨2, ![M, N]⟩ .f32) :
    maximumf X (broadcast ⟨2, ![M, N]⟩ (Scalar.ofBits (F := Ideal) .f32 0x00000000#32)) = relu X := by
  funext i
  show max (X i) (Ideal.ofBits .f32 0x00000000#32) = max (X i) 0
  rw [Ideal.ofBits_zero_f32]

/-! ## A layer as the host computes it on the whole array -/

/-- The bias of an affine layer with its one-row form: the row read at its one row index. -/
theorem affine_eq_affine2 (A : Mat M K) (W : Mat K N) (b : Row N) (b2 : Mat 1 N)
    (hb : ∀ q : Fin N, b2 (ix2 (0 : Fin 1) q) = b (ix1 q)) : affine2 A W b2 = affine A W b := by
  funext i
  obtain ⟨p, q, rfl⟩ : ∃ (p : Fin M) (q : Fin N), i = ix2 p q := ⟨i 0, i 1, eq_ix2 i⟩
  show mm A W (ix2 p q) + b2 (ix2 (0 : Fin 1) q) = mm A W (ix2 p q) + b (ix1 q)
  rw [hb]

/-- The host's product plus the bias broadcast first to one row and then over the rows. -/
theorem addf_dotGeneral_broadcastInDim {φ₁ φ₂ : FTy} (a : FVec Ideal ⟨2, ![M, K]⟩ φ₁) (w : FVec Ideal ⟨2, ![K, N]⟩ φ₂)
    (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1]) :
    addf (Host.dotGeneral (F := Ideal) (DotDims.plain M K N) none a w)
        (broadcastInDim ⟨2, ![M, N]⟩ ![0, 1] h2 (broadcastInDim ⟨2, ![1, N]⟩ ![1] h1 b))
      = affine a w b := by
  rw [dotGeneral_plain]
  funext i
  obtain ⟨p, q, rfl⟩ : ∃ (p : Fin M) (q : Fin N), i = ix2 p q := ⟨i 0, i 1, eq_ix2 i⟩
  show mm a w (ix2 p q) + broadcastInDim ⟨2, ![M, N]⟩ ![0, 1] h2 (broadcastInDim ⟨2, ![1, N]⟩ ![1] h1 b) (ix2 p q) = mm a w (ix2 p q) + b (ix1 q)
  rw [broadcastInDim_apply ![0, 1] h2 _ (ix2 p q) (ix2 (0 : Fin 1) q) (fun ax => by
      match ax with
      | ⟨0, _⟩ => rfl
      | ⟨1, _⟩ =>
        show q.val = if N = 1 then 0 else q.val
        split
        · have := q.isLt; omega
        · rfl),
    broadcastInDim_apply ![1] h1 b (ix2 (0 : Fin 1) q) (ix1 q) (fun ax => by
      match ax with
      | ⟨0, _⟩ =>
        show q.val = if N = 1 then 0 else q.val
        split
        · have := q.isLt; omega
        · rfl)]

/-- The maximum with the zero scalar broadcast to the whole shape is the rectifier. -/
theorem maximumf_broadcastInDim_zero (X : FVec Ideal ⟨2, ![M, N]⟩ .f32)
    (h : (⟨0, ![]⟩ : Shape).BroadcastsInDim ⟨2, ![M, N]⟩ ![]) :
    maximumf X (broadcastInDim ⟨2, ![M, N]⟩ ![] h (constant (F := Ideal) ⟨0, ![]⟩ .f32 0x00000000#32)) = relu X := by
  funext i
  show max (X i) (broadcastInDim ⟨2, ![M, N]⟩ ![] h (constant (F := Ideal) ⟨0, ![]⟩ .f32 0x00000000#32) i) = max (X i) 0
  rw [broadcastInDim_apply ![] h _ i ix0 (fun ax => ax.elim0)]
  show max (X i) (Ideal.ofBits .f32 0x00000000#32) = max (X i) 0
  rw [Ideal.ofBits_zero_f32]

/-! ## Rows of a layer -/

/-- A layer on a block of rows is the layer on the whole array at those rows: entry (p, q) of the block's result is
    entry (ρ p, q) of the whole result when row p of the block is row ρ p of the array. -/
theorem mm_rows {M' : ℕ} (A : Mat M' K) (blk : Mat M K) (W : Mat K N) (ρ : Fin M → Fin M')
    (h : ∀ p k, blk (ix2 p k) = A (ix2 (ρ p) k)) (p : Fin M) (q : Fin N) :
    mm blk W (ix2 p q) = mm A W (ix2 (ρ p) q) := by
  unfold mm
  exact Finset.sum_congr rfl fun k _ => by rw [show (ix2 p q : (⟨2, ![M, N]⟩ : Shape).Idx) 0 = p from rfl, h p k]; rfl

/-- So a rectified affine layer on a block of rows, with the whole weight matrix and bias row, is the layer on the
    whole array at those rows. -/
theorem relu_affine2_rows {M' : ℕ} (A : Mat M' K) (blk : Mat M K) (W : Mat K N) (b : Mat 1 N) (ρ : Fin M → Fin M')
    (h : ∀ p k, blk (ix2 p k) = A (ix2 (ρ p) k)) (p : Fin M) (q : Fin N) :
    relu (affine2 blk W b) (ix2 p q) = relu (affine2 A W b) (ix2 (ρ p) q) := by
  show max (mm blk W (ix2 p q) + b (ix2 (0 : Fin 1) q)) 0 = max (mm A W (ix2 (ρ p) q) + b (ix2 (0 : Fin 1) q)) 0
  rw [mm_rows A blk W ρ h p q]

/-- The same without the rectifier. -/
theorem affine2_rows {M' : ℕ} (A : Mat M' K) (blk : Mat M K) (W : Mat K N) (b : Mat 1 N) (ρ : Fin M → Fin M')
    (h : ∀ p k, blk (ix2 p k) = A (ix2 (ρ p) k)) (p : Fin M) (q : Fin N) :
    affine2 blk W b (ix2 p q) = affine2 A W b (ix2 (ρ p) q) := by
  show mm blk W (ix2 p q) + b (ix2 (0 : Fin 1) q) = mm A W (ix2 (ρ p) q) + b (ix2 (0 : Fin 1) q)
  rw [mm_rows A blk W ρ h p q]

end Cert.Dense

end
-- ==== Proof.LibMatAssoc.lean ====
/-
  Matrices of real entries on the extended reals.

  A row of a matrix product depends on the left factor through that one row only. The product of three matrices
  whose entries are all real (neither infinity) is associative: on the extended reals that takes distributivity of
  the product over a finite sum, which fails at the infinities, so the sums are computed in the reals and carried
  back through the embedding, which commutes with finite sums and with products.
-/
import proofs.«139982_g61624190763038_cont_9to1c4b_203_6_alg».proof.Proof.LibDense

noncomputable section

open scoped BigOperators

namespace Cert.Gcn

open Cert.Dense Idealize.ShloMosaic Idealize.ShloMosaic.ValueIdx

variable {M K L N : ℕ}

/-- Every entry is a real number (neither infinity). -/
def Finite {s : Shape} (X : s.Idx → EReal) : Prop := ∀ i, ∃ r : ℝ, X i = (r : EReal)

/-- The embedding of the reals commutes with finite sums. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Row `p` of `blk · W` is row `r` of `A · W` when row `p` of `blk` is row `r` of `A`. -/
theorem mm_row {M' : ℕ} (A : Mat M' K) (blk : Mat M K) (W : Mat K N) (p : Fin M) (r : Fin M')
    (h : ∀ k, blk (ix2 p k) = A (ix2 r k)) (q : Fin N) : mm blk W (ix2 p q) = mm A W (ix2 r q) := by
  show ∑ k : Fin K, blk (ix2 p k) * W (ix2 k q) = ∑ k : Fin K, A (ix2 r k) * W (ix2 k q)
  exact Finset.sum_congr rfl fun k _ => by rw [h k]

/-- Associativity of a triple product of real numbers summed over two finite axes. -/
theorem real_assoc (a : Fin K → ℝ) (x : Fin K → Fin L → ℝ) (w : Fin L → ℝ) :
    ∑ l : Fin L, (∑ k : Fin K, a k * x k l) * w l = ∑ k : Fin K, a k * ∑ l : Fin L, x k l * w l := by
  simp_rw [Finset.sum_mul, Finset.mul_sum]
  rw [Finset.sum_comm]
  exact Finset.sum_congr rfl fun k _ => Finset.sum_congr rfl fun l _ => by ring

/-- The product of three matrices of real entries is associative on the extended reals. -/
theorem mm_assoc (A : Mat M K) (X : Mat K L) (W : Mat L N) (hA : Finite A) (hX : Finite X) (hW : Finite W) :
    mm (mm A X) W = mm A (mm X W) := by
  funext i
  obtain ⟨p, q, rfl⟩ : ∃ (p : Fin M) (q : Fin N), i = ix2 p q := ⟨i 0, i 1, eq_ix2 i⟩
  choose a ha using hA
  choose x hx using hX
  choose w hw using hW
  have hl : mm (mm A X) W (ix2 p q)
      = ((∑ l : Fin L, (∑ k : Fin K, a (ix2 p k) * x (ix2 k l)) * w (ix2 l q) : ℝ) : EReal) := by
    show ∑ l : Fin L, (∑ k : Fin K, A (ix2 p k) * X (ix2 k l)) * W (ix2 l q) = _
    rw [coe_sum]
    refine Finset.sum_congr rfl fun l _ => ?_
    rw [EReal.coe_mul, coe_sum, hw]
    refine congrArg (· * (w (ix2 l q) : EReal)) (Finset.sum_congr rfl fun k _ => ?_)
    rw [EReal.coe_mul, ha, hx]
  have hr : mm A (mm X W) (ix2 p q)
      = ((∑ k : Fin K, a (ix2 p k) * ∑ l : Fin L, x (ix2 k l) * w (ix2 l q) : ℝ) : EReal) := by
    show ∑ k : Fin K, A (ix2 p k) * (∑ l : Fin L, X (ix2 k l) * W (ix2 l q)) = _
    rw [coe_sum]
    refine Finset.sum_congr rfl fun k _ => ?_
    rw [EReal.coe_mul, coe_sum, ha]
    refine congrArg ((a (ix2 p k) : EReal) * ·) (Finset.sum_congr rfl fun l _ => ?_)
    rw [EReal.coe_mul, hx, hw]
  rw [hl, hr]
  exact congrArg _ (real_assoc (fun k => a (ix2 p k)) (fun k l => x (ix2 k l)) (fun l => w (ix2 l q)))

end Cert.Gcn

end
-- ==== Proof.ScaledDot.lean ====
/-
  Scaled dot products of the rows of two matrices, in two arrangements.

  Entry (i, j) pairs row i of the queries with row j of the keys over their 512 columns. One arrangement scales each
  query entry by a constant c before the products are summed: the sum over k of (q[i,k] · c) · key[j,k]. The other sums
  the plain products, multiplies the sum by s, negates it and divides by t. With c = -(s / t) the two are the same
  number whenever every entry is real: the constant moves across the finite sum by distributivity. On the extended
  reals distributivity fails at the infinities, so the sums are computed in the reals and carried back through the
  embedding, which commutes with finite sums, products and negation; division by a nonzero real is the product with
  its reciprocal.
-/
import proofs.«139982_g61624190763038_cont_9to1c4b_203_6_alg».proof.Proof.LibMatAssoc
import Idealize.ShloMosaic.PureOps.Ideal
import Idealize.ShloMosaic.Lib.ValueIdx

noncomputable section

open scoped BigOperators

namespace Cert.ScaledDot

open Idealize.ShloMosaic Idealize.ShloMosaic.ValueIdx

/-- 1024 query rows of 512 columns. -/
abbrev Queries : Type := (⟨2, ![1024, 512]⟩ : Shape).Idx → EReal
/-- 65536 key rows of 512 columns. -/
abbrev Keys : Type := (⟨2, ![65536, 512]⟩ : Shape).Idx → EReal
/-- One entry per pair of a query row and a key row. -/
abbrev Dists : Type := (⟨2, ![1024, 65536]⟩ : Shape).Idx → EReal

/-- The queries scaled first: entry (i, j) is the sum over k of (q[i,k] · c) · key[j,k]. -/
def scaledFirst (c : EReal) (q : Queries) (key : Keys) : Dists :=
  fun i => ∑ k : Fin 512, (q (ix2 (i 0) k) * c) * key (ix2 (i 1) k)

/-- The sum scaled afterwards: entry (i, j) is -((sum over k of q[i,k] · key[j,k]) · s) / t. -/
def scaledAfter (s t : EReal) (q : Queries) (key : Keys) : Dists :=
  fun i => Ideal.div (-((∑ k : Fin 512, q (ix2 (i 0) k) * key (ix2 (i 1) k)) * s)) t

/-- In the reals: scaling every left factor by -(s / t) is scaling the sum by s, negating and dividing by t. -/
theorem real_law {n : ℕ} (a b : Fin n → ℝ) (s t : ℝ) :
    ∑ k, a k * (-(s / t)) * b k = -((∑ k, a k * b k) * s) * (1 / t) := by
  rw [Finset.sum_mul, ← Finset.sum_neg_distrib, Finset.sum_mul]
  exact Finset.sum_congr rfl fun k _ => by rw [div_eq_mul_inv, one_div]; ring

/-- On the extended reals the two arrangements agree when every entry of both matrices is real, for c = -(s / t)
    with t a nonzero real. -/
theorem scaledFirst_eq_scaledAfter (q : Queries) (key : Keys) (hq : Cert.Gcn.Finite q) (hk : Cert.Gcn.Finite key)
    (s t : ℝ) (ht : t ≠ 0) :
    scaledFirst ((-(s / t) : ℝ) : EReal) q key = scaledAfter (s : EReal) (t : EReal) q key := by
  funext i
  choose a ha using hq
  choose b hb using hk
  show ∑ k : Fin 512, (q (ix2 (i 0) k) * ((-(s / t) : ℝ) : EReal)) * key (ix2 (i 1) k)
      = Ideal.div (-((∑ k : Fin 512, q (ix2 (i 0) k) * key (ix2 (i 1) k)) * (s : EReal))) (t : EReal)
  have hl : ∑ k : Fin 512, (q (ix2 (i 0) k) * ((-(s / t) : ℝ) : EReal)) * key (ix2 (i 1) k)
      = ((∑ k : Fin 512, a (ix2 (i 0) k) * (-(s / t)) * b (ix2 (i 1) k) : ℝ) : EReal) := by
    rw [Cert.Gcn.coe_sum]
    exact Finset.sum_congr rfl fun k _ => by rw [EReal.coe_mul, EReal.coe_mul, ha, hb]
  have hr : ∑ k : Fin 512, q (ix2 (i 0) k) * key (ix2 (i 1) k)
      = ((∑ k : Fin 512, a (ix2 (i 0) k) * b (ix2 (i 1) k) : ℝ) : EReal) := by
    rw [Cert.Gcn.coe_sum]
    exact Finset.sum_congr rfl fun k _ => by rw [EReal.coe_mul, ha, hb]
  rw [hl, hr, Ideal.div_coe ht, ← EReal.coe_mul, ← EReal.coe_neg, ← EReal.coe_mul]
  exact congrArg _ (real_law _ _ s t)

end Cert.ScaledDot

end
-- ==== Proof.RefValue.lean ====
/-
  The reference's result, entry by entry.

  The reference transposes the keys, takes the plain matrix product of the queries with the transposed keys — entry
  (i, j) is the sum over k of q[i,k] · keyᵀ[k,j], and keyᵀ[k,j] is key[j,k] —, multiplies every entry by the scale,
  negates it and divides it by the temperature: the arrangement that scales the sum afterwards.
-/
import proofs.«139982_g61624190763038_cont_9to1c4b_203_6_alg».proof.Proof.Gen.ReferenceIdeal.Read
import proofs.«139982_g61624190763038_cont_9to1c4b_203_6_alg».proof.Proof.ScaledDot

noncomputable section

open scoped BigOperators

namespace Cert.ReferenceIdeal.RefValue

open Cert.ReferenceIdeal Cert.ReferenceIdeal.Read Idealize.ShloMosaic Idealize.ShloMosaic.ValueIdx

/-- The product's left factor at (i, k) is the query entry of row i, column k. -/
theorem left_factor (i : S1024x65536.Idx) (k : Fin 512) : lidx_main_v1 i k = ix2 (i 0) k :=
  funext fun a => by match a with | ⟨0, _⟩ => rfl | ⟨1, _⟩ => rfl

/-- Its right factor, read through the transposition, is the key entry of row j, column k. -/
theorem right_factor (i : S1024x65536.Idx) (k : Fin 512) : idx_main_v0 (ridx_main_v1 i k) = ix2 (i 1) k :=
  funext fun a => by match a with | ⟨0, _⟩ => rfl | ⟨1, _⟩ => rfl

/-- The reference's result is the sum of the plain products, scaled, negated and divided afterwards. -/
theorem reference_eq (x0 : (⟨S1024x512, .f32⟩ : BufTy).Contents (Elt Ideal)) (x1 : (⟨S65536x512, .f32⟩ : BufTy).Contents (Elt Ideal)) :
    val_main_v6 (F := Ideal) x0 x1
      = Cert.ScaledDot.scaledAfter (Ideal.ofBits .f32 0x3D3504F3#32) (Ideal.ofBits .f32 0x3E4CCCCD#32) x0 x1 := by
  funext i
  rw [val_main_v6_apply, val_main_v4_apply, val_main_v3_apply, val_main_v1_apply, val_main_v2_apply, val_main_cst_apply,
    val_main_v5_apply, val_main_cst_0_apply]
  simp only [val_main_v0_apply, left_factor, right_factor, Ideal.hostDivf_def, Ideal.hostNegf_def, Ideal.negf_def,
    Ideal.mulf_def, Ideal.ofBits_def]
  rfl

end Cert.ReferenceIdeal.RefValue

end
-- ==== Proof.BodyValue.lean ====
/-
  What the kernel body computes on one pair of blocks, entry by entry.

  The body multiplies every entry of the query block by the named constant, and contracts the result with the key
  block over the second axis of both: entry (p, r) of the product is the sum over k of a[p,k] · b[r,k], a row of the
  left operand against a ROW of the right one, accumulated into zero. The two changes of float format are the identity
  on the extended reals. The named constant denotes the rational -11863283 / 53687092.
-/
import proofs.«139982_g61624190763038_cont_9to1c4b_203_6_alg».proof.Proof.Gen.KernelIdeal.Skeleton
import Idealize.ShloMosaic.Lib.ValueIdx
import Idealize.ShloMosaic.PureOps.Ideal.Laws
import Idealize.ShloMosaic.PureOps.IdealRules

noncomputable section

open scoped BigOperators

namespace Cert.KernelIdeal.BodyValue

open Cert.KernelIdeal Cert.KernelIdeal.Gen Idealize.ShloMosaic Idealize.ShloMosaic.ValueIdx

/-- The named constant's value, by the certificate's table. -/
theorem named_scale : Named.named (F := Ideal) κ "neg_scale_over_temperature" (φ := .f32) 0xBE624630#32
    = ((-11863283 / 53687092 : ℝ) : EReal) :=
  IdealRules.named_const.ideal_named_scalar _ _ _ _ rfl

/-- The left operand is read at the output's row, -/
theorem lhs_row (j : S1024x4096.Idx) (q : dot_S1024x512_S4096x512_S1024x4096_1_1_0_0_n_n.contr.Idx) :
    (dot_S1024x512_S4096x512_S1024x4096_1_1_0_0_n_n.lhsIdx j q 0).val = (j 0).val := by
  unfold DotDims.lhsIdx
  rw [dif_neg (show ¬(0 : Fin S1024x512.rank) ∈ dot_S1024x512_S4096x512_S1024x4096_1_1_0_0_n_n.lhsBatch by decide),
    dif_pos (show (0 : Fin S1024x512.rank) ∈ dot_S1024x512_S4096x512_S1024x4096_1_1_0_0_n_n.lhsNonContracting by decide)]
  rfl
/-- and at the contracted column; -/
theorem lhs_col (j : S1024x4096.Idx) (q : dot_S1024x512_S4096x512_S1024x4096_1_1_0_0_n_n.contr.Idx) :
    (dot_S1024x512_S4096x512_S1024x4096_1_1_0_0_n_n.lhsIdx j q 1).val = (q ⟨0, by decide⟩).val :=
  dot_S1024x512_S4096x512_S1024x4096_1_1_0_0_n_n.lhsIdx_val_of_single rfl j q
/-- the right operand at the ROW the output's column names, -/
theorem rhs_row (j : S1024x4096.Idx) (q : dot_S1024x512_S4096x512_S1024x4096_1_1_0_0_n_n.contr.Idx) :
    (dot_S1024x512_S4096x512_S1024x4096_1_1_0_0_n_n.rhsIdx j q 0).val = (j 1).val := by
  unfold DotDims.rhsIdx
  rw [dif_neg (show ¬(0 : Fin S4096x512.rank) ∈ dot_S1024x512_S4096x512_S1024x4096_1_1_0_0_n_n.rhsBatch by decide),
    dif_pos (show (0 : Fin S4096x512.rank) ∈ dot_S1024x512_S4096x512_S1024x4096_1_1_0_0_n_n.rhsNonContracting by decide)]
  rfl
/-- and at the contracted column. -/
theorem rhs_col (j : S1024x4096.Idx) (q : dot_S1024x512_S4096x512_S1024x4096_1_1_0_0_n_n.contr.Idx) :
    (dot_S1024x512_S4096x512_S1024x4096_1_1_0_0_n_n.rhsIdx j q 1).val = (q ⟨0, by decide⟩).val :=
  dot_S1024x512_S4096x512_S1024x4096_1_1_0_0_n_n.rhsIdx_val_of_single rfl j q

/-- The product of a with the transpose of b, into zero: entry (p, r) is the sum over k of a[p,k] · b[r,k]. -/
theorem matmul_rows_zero {φ₁ φ₂ : FTy} (a : FVec Ideal S1024x512 φ₁) (b : FVec Ideal S4096x512 φ₂) (p : Fin 1024) (r : Fin 4096) :
    matmul dot_S1024x512_S4096x512_S1024x4096_1_1_0_0_n_n none a b (constant (F := Ideal) S1024x4096 .f32 0x00000000#32) (ix2 p r)
      = ∑ k : Fin 512, a (ix2 p k) * b (ix2 r k) := by
  simp only [matmul]
  rw [Ideal.matmul_constant_zero_apply,
    ← Equiv.sum_comp (contrEquiv1 dot_S1024x512_S4096x512_S1024x4096_1_1_0_0_n_n 512 rfl rfl).symm]
  refine Finset.sum_congr rfl fun k _ => ?_
  have hk := contrEquiv1_symm_val dot_S1024x512_S4096x512_S1024x4096_1_1_0_0_n_n 512 rfl rfl k
  have el : dot_S1024x512_S4096x512_S1024x4096_1_1_0_0_n_n.lhsIdx (ix2 p r)
      ((contrEquiv1 dot_S1024x512_S4096x512_S1024x4096_1_1_0_0_n_n 512 rfl rfl).symm k) = ix2 p k :=
    funext fun ax => Fin.ext (by
      match ax with
      | ⟨0, _⟩ => exact lhs_row _ _
      | ⟨1, _⟩ => exact (lhs_col _ _).trans hk)
  have er : dot_S1024x512_S4096x512_S1024x4096_1_1_0_0_n_n.rhsIdx (ix2 p r)
      ((contrEquiv1 dot_S1024x512_S4096x512_S1024x4096_1_1_0_0_n_n 512 rfl rfl).symm k) = ix2 r k :=
    funext fun ax => Fin.ext (by
      match ax with
      | ⟨0, _⟩ => exact rhs_row _ _
      | ⟨1, _⟩ => exact (rhs_col _ _).trans hk)
  rw [el, er]

/-- The body's stored value at entry (p, r): the sum over k of (x0[p,k] · c) · x1[r,k], c the named constant's value. -/
theorem payload_apply (x0 : Vec Ideal S1024x512 .f32) (x1 : Vec Ideal S4096x512 .f32) (p : Fin 1024) (r : Fin 4096) :
    k0_pay1 (F := Ideal) x0 x1 (ix2 p r)
      = ∑ k : Fin 512, (x0 (ix2 p k) * ((-11863283 / 53687092 : ℝ) : EReal)) * x1 (ix2 r k) := by
  unfold k0_pay1
  refine (matmul_rows_zero _ _ p r).trans (Finset.sum_congr rfl fun k _ => ?_)
  show (x0 (ix2 p k) * Named.named (F := Ideal) κ "neg_scale_over_temperature" (φ := .f32) 0xBE624630#32) * x1 (ix2 r k) = _
  rw [named_scale]

end Cert.KernelIdeal.BodyValue

end
-- ==== Proof.ArrayValue.lean ====
/-
  From the blocks the grid points write to the whole output array.

  The grid has 16 points. At point t the body sees the whole query matrix (its window never moves) and rows
  4096·t … 4096·t + 4095 of the keys, and writes columns 4096·t … 4096·t + 4095 of the output. Entry (p, r) of what
  it writes pairs query row p with key row 4096·t + r, which is what the scaled dot product of the whole arrays has at
  entry (p, 4096·t + r). The sixteen column blocks tile the output: column j lies in the block of point j / 4096. So
  after the run the output array is the scaled dot product of the argument arrays, the queries scaled first.
-/
import proofs.«139982_g61624190763038_cont_9to1c4b_203_6_alg».proof.Proof.Gen.KernelIdeal.Value
import proofs.«139982_g61624190763038_cont_9to1c4b_203_6_alg».proof.Proof.BodyValue
import proofs.«139982_g61624190763038_cont_9to1c4b_203_6_alg».proof.Proof.ScaledDot

noncomputable section

open scoped BigOperators

namespace Cert.KernelIdeal.ArrayValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The value the named constant denotes. -/
abbrev scale : EReal := ((-11863283 / 53687092 : ℝ) : EReal)

theorem origin : (![0, 0] : Fin 2 → Nat) = fun _ => 0 := funext fun a => by fin_cases a <;> rfl

/-- The block each window is on at point t, decided over the 16 points: the queries' never moves, the keys' is row
    block t, the output's is column block t. -/
theorem block_indices : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val :=
  (by decide +kernel : ∀ t : Fin grid0.N, _)

/-- One entry of what the body stores, over any blocks: when the query block's row and the key block's row are rows of
    the whole arrays, the stored entry is the whole arrays' scaled dot product at those rows. -/
theorem block_entry (q : Cert.ScaledDot.Queries) (key : Cert.ScaledDot.Keys)
    (x0 : Vec Ideal S1024x512 .f32) (x1 : Vec Ideal S4096x512 .f32) (j : S1024x4096.Idx) (i : S1024x65536.Idx)
    (h0 : ∀ k : Fin 512, x0 (ix2 (j 0) k) = q (ix2 (i 0) k))
    (h1 : ∀ k : Fin 512, x1 (ix2 (j 1) k) = key (ix2 (i 1) k)) :
    k0_pay1 (F := Ideal) x0 x1 j = Cert.ScaledDot.scaledFirst scale q key i := by
  obtain ⟨p, r, rfl⟩ : ∃ (p : Fin 1024) (r : Fin 4096), j = ix2 p r := ⟨j 0, j 1, eq_ix2 j⟩
  rw [Cert.KernelIdeal.BodyValue.payload_apply]
  unfold Cert.ScaledDot.scaledFirst
  exact Finset.sum_congr rfl fun k _ => by rw [← h0 k, ← h1 k]

/-- What point t writes back is block t of the scaled dot product of the argument arrays. -/
theorem flushed_eq (c : Dev nD) (t : Fin cfg0.N) :
    (dats m 0 c).flushed 2 t = ((cfg0.win 2).blk t).view.read (Elt Ideal)
      (Cert.ScaledDot.scaledFirst scale (V m c main_arg0) (V m c main_arg1)) := by
  show (cfg0.win 2).cut (grid0.coords t) ((dats m 0 c).after 2 t) = _
  rw [after0_2]
  unfold out0_2
  rw [View.canon_unit_zero origin]
  simp only [View.ld_unit_zero (S := S1024x512) origin, View.ld_unit_zero (S := S4096x512) origin]
  obtain ⟨e00, e01, e10, e11, e20, e21⟩ := block_indices t
  funext j
  show k0_pay1 (F := Ideal) (iblk m c 0 t) (iblk m c 1 t) j
    = Cert.ScaledDot.scaledFirst scale (V m c main_arg0) (V m c main_arg1) (((cfg0.win 2).blk t).view.emb j)
  refine block_entry (V m c main_arg0) (V m c main_arg1) (iblk m c 0 t) (iblk m c 1 t) j _ ?_ ?_
  · intro k
    show V m c main_arg0 (((cfg0.win 0).blk t).view.emb (ix2 (j 0) k))
      = V m c main_arg0 (ix2 ((((cfg0.win 2).blk t).view.emb j) 0) k)
    refine congrArg _ (funext fun a => Fin.ext ?_)
    match a with
    | ⟨0, _⟩ =>
      show win0_0.index t (0 : Fin 2) * 1024 + 1 * (j 0).val = win0_2.index t (0 : Fin 2) * 1024 + 1 * (j 0).val
      omega
    | ⟨1, _⟩ =>
      show win0_0.index t (1 : Fin 2) * 512 + 1 * k.val = k.val
      omega
  · intro k
    show V m c main_arg1 (((cfg0.win 1).blk t).view.emb (ix2 (j 1) k))
      = V m c main_arg1 (ix2 ((((cfg0.win 2).blk t).view.emb j) 1) k)
    refine congrArg _ (funext fun a => Fin.ext ?_)
    match a with
    | ⟨0, _⟩ =>
      show win0_1.index t (0 : Fin 2) * 4096 + 1 * (j 1).val = win0_2.index t (1 : Fin 2) * 4096 + 1 * (j 1).val
      omega
    | ⟨1, _⟩ =>
      show win0_1.index t (1 : Fin 2) * 512 + 1 * k.val = k.val
      omega

/-- An index of the output lies in point t's block iff each coordinate is in the block's range on its axis. -/
theorem mem_block (t : Fin cfg0.N) (i : S1024x65536.Idx) :
    i ∈ ((cfg0.win 2).blk t).view.set ↔ ∀ a : Fin 2, win0_2.index t a * S1024x4096.size a ≤ (i a).val
      ∧ (i a).val < win0_2.index t a * S1024x4096.size a + S1024x4096.size a := by
  show i ∈ ((View.whole main_v0).slice (win0_2.rect t)).set ↔ _
  rw [View.set_slice_whole, Rect.mem_set_unit]
  exact Iff.rfl

/-- Every index of the output is in the block of the point its column names: column j belongs to point j / 4096. -/
theorem covered (i : S1024x65536.Idx) :
    ∃ t : Fin cfg0.N, (cfg0.win 2).flush t = true ∧ i ∈ ((cfg0.win 2).blk t).view.set := by
  have hi0 : (i 0).val < 1024 := (i 0).isLt
  have hi1 : (i 1).val < 65536 := (i 1).isLt
  obtain ⟨t, ht⟩ : ∃ t : Fin cfg0.N, t.val = (i 1).val / 4096 :=
    ⟨⟨(i 1).val / 4096, by show (i 1).val / 4096 < 16; omega⟩, rfl⟩
  obtain ⟨-, -, -, -, e20, e21⟩ := block_indices t
  refine ⟨t, flush0_2 t, ?_⟩
  rw [mem_block]
  intro a
  match a with
  | ⟨0, _⟩ =>
    show win0_2.index t (0 : Fin 2) * 1024 ≤ (i 0).val ∧ (i 0).val < win0_2.index t (0 : Fin 2) * 1024 + 1024
    omega
  | ⟨1, _⟩ =>
    show win0_2.index t (1 : Fin 2) * 4096 ≤ (i 1).val ∧ (i 1).val < win0_2.index t (1 : Fin 2) * 4096 + 4096
    omega

/-- The output array after the run is the scaled dot product of the argument arrays. -/
theorem final (c : Dev nD) :
    (dats m 0 c).arrAt 2 cfg0.N
      = Cert.ScaledDot.scaledFirst scale (m ((c : Thread nD τ).loc main_arg0)) (m ((c : Thread nD τ).loc main_arg1)) :=
  (dats m 0 c).arrAt_eq_of_cover 2 _ (fun t _ => flushed_eq m c t) covered

/-- The kernel's run: the result array ends at the scaled dot product of the arguments, which end unchanged. -/
theorem run : θ_run defs (onTc (τ := τ) (main (F := Ideal))) ⟨m, fun _ => 0, ρ⟩ fun r => ∀ c : Dev nD,
      r.2.mem ((c : Thread nD τ).loc main_v0)
        = Cert.ScaledDot.scaledFirst scale (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Cert.KernelIdeal.Value.run_blocks m ρ)

end Cert.KernelIdeal.ArrayValue

end
-- ==== Proof.LibFinite.lean ====
/-
  "Every entry is finite", decoded.

  A precondition states it of an array as the conjunction over the array of the test |x| < +∞, the bound being the
  f32 word of +∞. An extended real whose absolute value is below +∞ is neither infinity, so it is a real; and a
  conjunction over an array that holds is every one of its terms.
-/
import proofs.«139982_g61624190763038_cont_9to1c4b_203_6_alg».proof.Proof.LibMatAssoc
import Idealize.ShloMosaic.Lib.ReduceAll
import Idealize.ShloMosaic.Lib.Affine

noncomputable section

namespace Cert.Gcn

open Idealize.ShloMosaic Idealize.ShloMosaic.ValueIdx

/-- An extended real with |x| < +∞ (the test the precondition makes, against the f32 word of +∞) is a real. -/
theorem real_of_abs_lt_inf (x : EReal) (h : Ideal.cmp .olt (max x (-x)) (Ideal.ofBits .f32 0x7F800000#32) = 1#1) :
    ∃ r : ℝ, x = (r : EReal) := by
  have htop : Ideal.ofBits .f32 0x7F800000#32 = ⊤ := by simp [Ideal.ofBits, Ideal.ieee]
  rw [htop] at h
  unfold Ideal.cmp at h
  have hlt : max x (-x) < ⊤ := by
    by_contra hn
    simp [hn] at h
  rw [max_lt_iff] at hlt
  induction x using EReal.rec with
  | bot => simp at hlt
  | coe r => exact ⟨r, rfl⟩
  | top => simp at hlt

instance : Subsingleton (⟨0, ![]⟩ : Shape).Idx := ⟨fun a b => funext fun d => d.elim0⟩

/-- One input's conjunct: the test holds at every index, so every entry is real. -/
theorem finite_of_all {s : Shape} {axes : List (Fin s.rank)} (x : FVec Ideal s .f32)
    (hb : (⟨0, ![]⟩ : Shape).BroadcastsInDim s (![] : Fin 0 → Fin s.rank)) (hr : s.ReducesTo axes ⟨0, ![]⟩)
    (hu : 0 < (⟨0, ![]⟩ : Shape).numel)
    (e : Host.reduce IntOp.andi (cmpf .olt (Host.absf x) (broadcastInDim s ![] hb (constant (F := Ideal) ⟨0, ![]⟩ .f32 0x7F800000#32)))
          (constantI ⟨0, ![]⟩ 1 1#1) hr hu ix0 = 1#1) : Finite x := by
  intro i
  have hi := Host.reduce_andi_all _ _ hr hu ix0 e i
  have hi' : Ideal.cmp .olt (max (x i) (-(x i)))
      (broadcastInDim s ![] hb (constant (F := Ideal) ⟨0, ![]⟩ .f32 0x7F800000#32) i) = 1#1 := hi
  rw [broadcastInDim_apply ![] hb _ i ix0 (fun ax => ax.elim0)] at hi'
  exact real_of_abs_lt_inf (x i) hi'

end Cert.Gcn

end
-- ==== Proof.InputsReal.lean ====
/-
  The precondition, decoded: every entry of the queries and of the keys is a real number.

  The precondition is the conjunction of two tests, one per input array, each the conjunction over the array of
  |x| < +∞. A conjunction that holds gives both of its terms, and each term gives that every entry of its array is real.
-/
import proofs.«139982_g61624190763038_cont_9to1c4b_203_6_alg».proof.Pre_finite_inputs
import proofs.«139982_g61624190763038_cont_9to1c4b_203_6_alg».proof.Proof.Gen.Pre_finite_inputs
import proofs.«139982_g61624190763038_cont_9to1c4b_203_6_alg».proof.Proof.LibFinite

noncomputable section

namespace Cert.InputsReal

open Idealize.ShloMosaic Idealize.ShloMosaic.ValueIdx

/-- Where the precondition holds, both arrays have only real entries. -/
theorem real_of_pre (a0 : FVec Ideal Cert.Pre_finite_inputs.S1024x512 .f32) (a1 : FVec Ideal Cert.Pre_finite_inputs.S65536x512 .f32)
    (h : Cert.Pre_finite_inputs.fn (F := Ideal) a0 a1 = fun _ => 1#1) : Cert.Gcn.Finite a0 ∧ Cert.Gcn.Finite a1 := by
  have h0 := congrFun h ix0
  dsimp only [Cert.Pre_finite_inputs.fn] at h0
  obtain ⟨h1, h2⟩ := IntOp.andi_eq_one.mp h0
  exact ⟨Cert.Gcn.finite_of_all a0 _ _ _ h1, Cert.Gcn.finite_of_all a1 _ _ _ h2⟩

end Cert.InputsReal

end
-- ==== Proof.lean ====
/-
  Scaled dot-product distances: distances[i, j] = -(sum over k of query[i,k] · key[j,k]) · scale / temperature, for 1024
  query rows and 65536 key rows of 512 columns.

  The kernel folds the two constants into one, c, multiplies the queries by c first and then contracts the scaled
  queries with the keys, one block of 4096 key rows (4096 output columns) per grid point. The constant is named: it
  denotes -(s / t) = -11863283 / 53687092, where s = 11863283 / 2^28 and t = 13421773 / 2^26 are the numbers the
  reference's two words denote. The reference transposes the keys, takes the whole product, multiplies by s, negates and
  divides by t.

  Both are the same function of the arguments when every entry is real, which the precondition says: the constant
  moves across the finite sum by distributivity in the reals, and division by the nonzero real t is the product with
  its reciprocal. The sixteen column blocks the grid points write tile the output, so the kernel's result array is the
  scaled dot product of the whole argument arrays.
-/
import proofs.«139982_g61624190763038_cont_9to1c4b_203_6_alg».proof.Defs
import proofs.«139982_g61624190763038_cont_9to1c4b_203_6_alg».proof.Proof.Gen.Kernel
import proofs.«139982_g61624190763038_cont_9to1c4b_203_6_alg».proof.Proof.Gen.Kernel.Skeleton
import proofs.«139982_g61624190763038_cont_9to1c4b_203_6_alg».proof.Proof.Gen.Kernel.Launch
import proofs.«139982_g61624190763038_cont_9to1c4b_203_6_alg».proof.Proof.Gen.Kernel.Points
import proofs.«139982_g61624190763038_cont_9to1c4b_203_6_alg».proof.Proof.Gen.Kernel.Frame
import proofs.«139982_g61624190763038_cont_9to1c4b_203_6_alg».proof.Proof.Gen.KernelIdeal
import proofs.«139982_g61624190763038_cont_9to1c4b_203_6_alg».proof.Proof.Gen.KernelIdeal.Skeleton
import proofs.«139982_g61624190763038_cont_9to1c4b_203_6_alg».proof.Proof.Gen.KernelIdeal.Launch
import proofs.«139982_g61624190763038_cont_9to1c4b_203_6_alg».proof.Proof.Gen.KernelIdeal.Points
import proofs.«139982_g61624190763038_cont_9to1c4b_203_6_alg».proof.Proof.Gen.KernelIdeal.Frame
import proofs.«139982_g61624190763038_cont_9to1c4b_203_6_alg».proof.Proof.Gen.ReferenceIdeal
import proofs.«139982_g61624190763038_cont_9to1c4b_203_6_alg».proof.Proof.Gen.Pre_finite_inputs
import proofs.«139982_g61624190763038_cont_9to1c4b_203_6_alg».proof.Proof.Gen.KernelIdeal.Value
import proofs.«139982_g61624190763038_cont_9to1c4b_203_6_alg».proof.Proof.Gen.ReferenceIdeal.Run
import proofs.«139982_g61624190763038_cont_9to1c4b_203_6_alg».proof.Proof.Gen.ReferenceIdeal.Read
import proofs.«139982_g61624190763038_cont_9to1c4b_203_6_alg».proof.Proof.Consts
import proofs.«139982_g61624190763038_cont_9to1c4b_203_6_alg».proof.Proof.ScaledDot
import proofs.«139982_g61624190763038_cont_9to1c4b_203_6_alg».proof.Proof.RefValue
import proofs.«139982_g61624190763038_cont_9to1c4b_203_6_alg».proof.Proof.ArrayValue
import proofs.«139982_g61624190763038_cont_9to1c4b_203_6_alg».proof.Proof.InputsReal
import Idealize.ShloMosaic.Adequacy
import Idealize.ShloMosaic.Init

noncomputable section

namespace Cert.Proof

open Idealize.ShloMosaic Idealize.SL.Sem Cert.Kernel

/-- The kernel as printed runs and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's run, its result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The one rewrite of the idealization: the folded constant is named, and the name denotes -11863283 / 53687092. -/
theorem preserves : Cert.preserves_Kernel_KernelIdeal :=
  IdealRules.named_const.statement Cert.KernelIdeal.κ "neg_scale_over_temperature" .f32 0xBE624630#32
    ((-11863283 / 53687092 : ℝ) : EReal) rfl

/-- From arguments that agree and are real, the kernel's result array and the reference's are one array: the scaled
    dot product with the queries scaled first is the one with the sum scaled, negated and divided afterwards. -/
theorem algebraic : Cert.algebraic_KernelIdeal_ReferenceIdeal := by
  intro m ρ m' ρ' hpre hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  obtain ⟨hq, hk⟩ := Cert.InputsReal.real_of_pre _ _ (hpre c)
  rw [Cert.ReferenceIdeal.Read.val_main_v6_eq, Cert.ReferenceIdeal.RefValue.reference_eq, Cert.Consts.ofBits_scale,
    Cert.Consts.ofBits_temperature,
    ← Cert.ScaledDot.scaledFirst_eq_scaledAfter _ _ hq hk _ _ Cert.Consts.temperature_ne_zero,
    Cert.Consts.neg_scale_div_temperature]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
